-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S256x2048 : Shape := ⟨2, ![256, 2048]⟩
abbrev S1x256 : Shape := ⟨2, ![1, 256]⟩

abbrev nBuf : Space → Nat
  | .hbm => 31
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S4096x2048, .bf16⟩
  | .hbm, ⟨16, _⟩ => ⟨S4096x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S8192x2048, .f32⟩
  | .hbm, ⟨16, _⟩ => ⟨S8192x2048, .f32⟩
  | .hbm, ⟨17, _⟩ => ⟨S8192, .f32⟩
  | .hbm, ⟨18, _⟩ => ⟨S2048x8192, .f32⟩
  | .hbm, ⟨19, _⟩ => ⟨S4096x8192, .f32⟩
  | .hbm, ⟨20, _⟩ => ⟨S2048x8192, .f32⟩
  | .hbm, ⟨21, _⟩ => ⟨S4096x8192, .f32⟩
  | .hbm, ⟨22, _⟩ => ⟨S4096x8192, .f32⟩
  | .hbm, ⟨23, _⟩ => ⟨S1x8192, .f32⟩
  | .hbm, ⟨24, _⟩ => ⟨S4096x8192, .f32⟩
  | .hbm, ⟨25, _⟩ => ⟨S4096x8192, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.BlockMath.lean ====
/-
  The arithmetic of ONE block of the kernel, read at an index of the block.

  A grid point holds 512 batch rows of the input and of the previous hidden state (all 2048 features), 256 rows of
  each of the eight weight matrices (all 2048 features), the matching 256 entries of each bias as a one-row
  matrix, and the 512 × 256 tile of the cell state. The body forms each gate as
      (a · w₁ᵀ + b · w₂ᵀ) + bias row, broadcast down the rows
  where both products contract the FEATURE axis of both operands, so entry `(p, q)` is the sum over the 2048
  features `k` of `a[p,k] · w₁[q,k]` plus that of `b[p,k] · w₂[q,k]` plus `bias[0,q]`. The stores are the pointwise
  logistic / tanh combinations of those gates, each stored tile written whole.
-/
import proofs.«146625_j53137335386702_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- Every store and load of the body starts at the corner of its buffer. -/
theorem corner : (![0, 0] : Fin 2 → Nat) = fun _ => 0 := funext fun a => by fin_cases a <;> rfl

/-! ## The product contracting the feature axis of both operands -/

theorem lhs_row (j : S512x256.Idx) (k : dot_S512x2048_S256x2048_S512x256_1_1_0_0_n_n.contr.Idx) : (dot_S512x2048_S256x2048_S512x256_1_1_0_0_n_n.lhsIdx j k 0).val = (j 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_feat (j : S512x256.Idx) (k : dot_S512x2048_S256x2048_S512x256_1_1_0_0_n_n.contr.Idx) : (dot_S512x2048_S256x2048_S512x256_1_1_0_0_n_n.lhsIdx j k 1).val = (k ⟨0, by decide⟩).val :=
  dot_S512x2048_S256x2048_S512x256_1_1_0_0_n_n.lhsIdx_val_of_single rfl j k
theorem rhs_row (j : S512x256.Idx) (k : dot_S512x2048_S256x2048_S512x256_1_1_0_0_n_n.contr.Idx) : (dot_S512x2048_S256x2048_S512x256_1_1_0_0_n_n.rhsIdx j k 0).val = (j 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_feat (j : S512x256.Idx) (k : dot_S512x2048_S256x2048_S512x256_1_1_0_0_n_n.contr.Idx) : (dot_S512x2048_S256x2048_S512x256_1_1_0_0_n_n.rhsIdx j k 1).val = (k ⟨0, by decide⟩).val :=
  dot_S512x2048_S256x2048_S512x256_1_1_0_0_n_n.rhsIdx_val_of_single rfl j k

/-- `a · wᵀ` into a zero accumulator, at `(p, q)`: the sum over the features of row `p` of `a` against row `q` of `w`. -/
theorem prod_at (a : FVec Ideal S512x2048 .bf16) (w : FVec Ideal S256x2048 .bf16) (p : Fin 512) (q : Fin 256) :
    matmul dot_S512x2048_S256x2048_S512x256_1_1_0_0_n_n none a w (constant (F := Ideal) S512x256 .f32 0x00000000#32) (ix2 p q)
      = ∑ k : Fin 2048, a (ix2 p k) * w (ix2 q k) := by
  refine (Ideal.matmul_constant_zero_apply dot_S512x2048_S256x2048_S512x256_1_1_0_0_n_n none a w (ix2 p q)).trans ?_
  rw [← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q) ((contrEquiv1 dot_S512x2048_S256x2048_S512x256_1_1_0_0_n_n 2048 rfl rfl).symm k) = ix2 p k := funext fun d => Fin.ext (by
    match d with
    | ⟨0, _⟩ => exact lhs_row _ _
    | ⟨1, _⟩ => exact (lhs_feat _ _).trans hk)
  have er : dot_S512x2048_S256x2048_S512x256_1_1_0_0_n_n.rhsIdx (ix2 p q) ((contrEquiv1 dot_S512x2048_S256x2048_S512x256_1_1_0_0_n_n 2048 rfl rfl).symm k) = ix2 q k := funext fun d => Fin.ext (by
    match d with
    | ⟨0, _⟩ => exact rhs_row _ _
    | ⟨1, _⟩ => exact (rhs_feat _ _).trans hk)
  rw [el, er]

/-! ## A gate of the block -/

/-- The gate's pre-activation at entry `(p, q)` of the block. -/
def gateBlk (a b : FVec Ideal S512x2048 .bf16) (w1 w2 : FVec Ideal S256x2048 .bf16) (bias : FVec Ideal S1x256 .f32)
    (p : Fin 512) (q : Fin 256) : EReal :=
  ((∑ k : Fin 2048, a (ix2 p k) * w1 (ix2 q k)) + ∑ k : Fin 2048, b (ix2 p k) * w2 (ix2 q k)) + bias (ix2 0 q)

/-- The bias row broadcast down the 512 rows, at `(p, q)`, is the bias at `q`. -/
theorem bias_at (bias : FVec Ideal S1x256 .f32) (p : Fin 512) (q : Fin 256) :
    broadcastTo S512x256 bias broadcasts_S1x256_S512x256 (ix2 p q) = bias (ix2 0 q) :=
  broadcastTo_apply bias broadcasts_S1x256_S512x256 (ix2 p q) (ix2 0 q) (fun d => match d with
    | ⟨0, _⟩ => by show (0 : Nat) = if (1 : Nat) = 1 then 0 else p.val; rw [if_pos rfl]
    | ⟨1, _⟩ => by show q.val = if (256 : Nat) = 1 then 0 else q.val; rw [if_neg (by decide)])

/-- The two products of a gate, added, then the bias: as vectors, with the body's identity reshapes gone. -/
theorem gate_vec (a b : FVec Ideal S512x2048 .bf16) (w1 w2 : FVec Ideal S256x2048 .bf16) (bias : FVec Ideal S1x256 .f32) :
    k0_pay5 (F := Ideal) a b w1 w2 bias
      = addf (addf (matmul dot_S512x2048_S256x2048_S512x256_1_1_0_0_n_n none a w1 (constant (F := Ideal) S512x256 .f32 0x00000000#32))
                   (matmul dot_S512x2048_S256x2048_S512x256_1_1_0_0_n_n none b w2 (constant (F := Ideal) S512x256 .f32 0x00000000#32)))
             (broadcastTo S512x256 bias broadcasts_S1x256_S512x256) := by
  unfold k0_pay5 k0_pay3 k0_pay4
  simp only [shapeCast_self]

/-- The input gate's and the forget gate's payloads are one function (the same operations on other operands). -/
theorem pay6_eq_pay5 : (k0_pay6 (F := Ideal)) = k0_pay5 := rfl

theorem gate_at (a b : FVec Ideal S512x2048 .bf16) (w1 w2 : FVec Ideal S256x2048 .bf16) (bias : FVec Ideal S1x256 .f32)
    (p : Fin 512) (q : Fin 256) : k0_pay5 (F := Ideal) a b w1 w2 bias (ix2 p q) = gateBlk a b w1 w2 bias p q := by
  rw [gate_vec]
  show (matmul dot_S512x2048_S256x2048_S512x256_1_1_0_0_n_n none a w1 (constant (F := Ideal) S512x256 .f32 0x00000000#32) (ix2 p q)
        + matmul dot_S512x2048_S256x2048_S512x256_1_1_0_0_n_n none b w2 (constant (F := Ideal) S512x256 .f32 0x00000000#32) (ix2 p q))
      + broadcastTo S512x256 bias broadcasts_S1x256_S512x256 (ix2 p q) = _
  rw [prod_at, prod_at, bias_at]
  rfl

/-- The candidate gate keeps its two products apart until the stores: each is the plain product. -/
theorem pay7_at (a : FVec Ideal S512x2048 .bf16) (w : FVec Ideal S256x2048 .bf16) (p : Fin 512) (q : Fin 256) :
    k0_pay7 (F := Ideal) a w (ix2 p q) = ∑ k : Fin 2048, a (ix2 p k) * w (ix2 q k) := by
  unfold k0_pay7 k0_pay3
  simp only [shapeCast_self]
  exact prod_at a w p q
theorem pay8_at (b : FVec Ideal S512x2048 .bf16) (w : FVec Ideal S256x2048 .bf16) (p : Fin 512) (q : Fin 256) :
    k0_pay8 (F := Ideal) b w (ix2 p q) = ∑ k : Fin 2048, b (ix2 p k) * w (ix2 q k) := by
  unfold k0_pay8 k0_pay4
  simp only [shapeCast_self]
  exact prod_at b w p q

/-! ## The two stored tiles -/

/-- The new cell state's tile at `(p, q)`, from the block's loads. -/
def cellBlk (x0 x1 : FVec Ideal S512x2048 .bf16) (x2 : FVec Ideal S512x256 .f32)
    (x3 x4 x5 x7 x8 x9 : FVec Ideal S256x2048 .bf16) (x11 x12 x13 : FVec Ideal S1x256 .f32) (p : Fin 512) (q : Fin 256) : EReal :=
  Ideal.logistic (gateBlk x0 x1 x4 x8 x12 p q) * x2 (ix2 p q)
    + Ideal.logistic (gateBlk x0 x1 x3 x7 x11 p q) * Ideal.tanh (gateBlk x0 x1 x5 x9 x13 p q)

/-- The new hidden state's tile at `(p, q)`. -/
def hiddenBlk (x0 x1 : FVec Ideal S512x2048 .bf16) (x2 : FVec Ideal S512x256 .f32)
    (x3 x4 x5 x6 x7 x8 x9 x10 : FVec Ideal S256x2048 .bf16) (x11 x12 x13 x14 : FVec Ideal S1x256 .f32) (p : Fin 512) (q : Fin 256) : EReal :=
  Ideal.logistic (gateBlk x0 x1 x6 x10 x14 p q) * Ideal.tanh (cellBlk x0 x1 x2 x3 x4 x5 x7 x8 x9 x11 x12 x13 p q)

/-- The cell-state payload at `(p, q)`, over its six operands as variables. -/
theorem pay1_at (gi gf px ph : FVec Ideal S512x256 .f32) (bg : FVec Ideal S1x256 .f32) (c : FVec Ideal S512x256 .f32)
    (p : Fin 512) (q : Fin 256) :
    k0_pay1 (F := Ideal) gi gf px ph bg c (ix2 p q)
      = Ideal.logistic (gf (ix2 p q)) * c (ix2 p q)
        + Ideal.logistic (gi (ix2 p q)) * Ideal.tanh ((px (ix2 p q) + ph (ix2 p q)) + bg (ix2 0 q)) := by
  unfold k0_pay1
  simp only [shapeCast_self]
  show Ideal.logistic (gf (ix2 p q)) * c (ix2 p q)
        + Ideal.logistic (gi (ix2 p q)) * Ideal.tanh ((px (ix2 p q) + ph (ix2 p q))
            + broadcastTo S512x256 bg broadcasts_S1x256_S512x256 (ix2 p q)) = _
  rw [bias_at]

/-- What the body leaves in the cell-state output tile, at `(p, q)`. -/
theorem out_cell_at (x0 x1 : FVec Ideal S512x2048 .bf16) (x2 : FVec Ideal S512x256 .f32)
    (x3 x4 x5 x6 x7 x8 x9 x10 : FVec Ideal S256x2048 .bf16) (x11 x12 x13 x14 : FVec Ideal S1x256 .f32) (p : Fin 512) (q : Fin 256) :
    out0_16 (F := Ideal) x0 x1 x2 x3 x4 x5 x6 x7 x8 x9 x10 x11 x12 x13 x14 (ix2 p q)
      = cellBlk x0 x1 x2 x3 x4 x5 x7 x8 x9 x11 x12 x13 p q := by
  unfold out0_16
  rw [View.canon_unit_zero corner]
  simp only [View.ld_unit_zero (S := S512x2048) corner, View.ld_unit_zero (S := S256x2048) corner,
    View.ld_unit_zero (S := S1x256) corner, View.ld_unit_zero (S := S512x256) corner]
  rw [pay1_at, pay6_eq_pay5, gate_at, gate_at, pay7_at, pay8_at]
  rfl

/-- What the body leaves in the hidden-state output tile, at `(p, q)`. -/
theorem out_hidden_at (x0 x1 : FVec Ideal S512x2048 .bf16) (x2 : FVec Ideal S512x256 .f32)
    (x3 x4 x5 x6 x7 x8 x9 x10 : FVec Ideal S256x2048 .bf16) (x11 x12 x13 x14 : FVec Ideal S1x256 .f32) (p : Fin 512) (q : Fin 256) :
    out0_15 (F := Ideal) x0 x1 x2 x3 x4 x5 x6 x7 x8 x9 x10 x11 x12 x13 x14 (ix2 p q)
      = hiddenBlk x0 x1 x2 x3 x4 x5 x6 x7 x8 x9 x10 x11 x12 x13 x14 p q := by
  unfold out0_15
  rw [View.canon_unit_zero corner]
  simp only [View.ld_unit_zero (S := S512x2048) corner, View.ld_unit_zero (S := S256x2048) corner,
    View.ld_unit_zero (S := S1x256) corner, View.ld_unit_zero (S := S512x256) corner]
  unfold k0_pay2
  simp only [shapeCast_self]
  show Ideal.logistic ((matmul dot_S512x2048_S256x2048_S512x256_1_1_0_0_n_n none (k0_pay3 x0) x6 (constant (F := Ideal) S512x256 .f32 0x00000000#32) (ix2 p q)
          + matmul dot_S512x2048_S256x2048_S512x256_1_1_0_0_n_n none (k0_pay4 x1) x10 (constant (F := Ideal) S512x256 .f32 0x00000000#32) (ix2 p q))
          + broadcastTo S512x256 x14 broadcasts_S1x256_S512x256 (ix2 p q))
        * Ideal.tanh (k0_pay1 (F := Ideal) (k0_pay5 x0 x1 x3 x7 x11) (k0_pay6 x0 x1 x4 x8 x12) (k0_pay7 x0 x5) (k0_pay8 x1 x9) x13 x2 (ix2 p q)) = _
  unfold k0_pay3 k0_pay4
  simp only [shapeCast_self]
  rw [prod_at, prod_at, bias_at, pay1_at, pay6_eq_pay5, gate_at, gate_at, pay7_at, pay8_at]
  rfl

end Cert.KernelIdeal.Block

end
-- ==== Proof.CellSpec.lean ====
/-
  One step of an LSTM cell, as functions of its fifteen argument arrays over the extended reals.

  For a batch row `p` and a hidden unit `q`, each of the four gates has the pre-activation
      gate x h wi wh b p q = (∑ₖ x[p,k] · wi[q,k]) + (∑ₖ h[p,k] · wh[q,k]) + b[q]
  — the input and the previous hidden state each contracted against ROW `q` of that gate's two weight matrices, plus
  the gate's bias. With σ the logistic function `1 / (1 + e⁻ˣ)`,
      c'[p,q] = σ(forget gate) · c[p,q] + σ(input gate) · tanh(candidate gate)
      h'[p,q] = σ(output gate) · tanh(c'[p,q]).
  Both programs of this certificate are shown to compute exactly these two arrays; no law beyond reading each
  operation at an index is needed, so nothing here asks the inputs to be finite.
-/
import Idealize.ShloMosaic.PureOps.Ideal
import Idealize.ShloMosaic.Lib.ValueIdx

noncomputable section

open scoped BigOperators

namespace Cert.LstmCell

open Idealize.ShloMosaic Idealize.ShloMosaic.ValueIdx

/-- A batch × feature array (the input, the hidden state, the cell state, and both results). -/
abbrev Act : Type := (⟨2, ![4096, 2048]⟩ : Shape).Idx → EReal
/-- One gate's weight matrix, hidden unit × feature. -/
abbrev Wgt : Type := (⟨2, ![2048, 2048]⟩ : Shape).Idx → EReal
/-- One gate's bias, per hidden unit. -/
abbrev Bia : Type := (⟨1, ![2048]⟩ : Shape).Idx → EReal

/-- A gate's pre-activation at batch row `p`, hidden unit `q`. -/
def gate (x h : Act) (wi wh : Wgt) (b : Bia) (p : Fin 4096) (q : Fin 2048) : EReal :=
  ((∑ k : Fin 2048, x (ix2 p k) * wi (ix2 q k)) + ∑ k : Fin 2048, h (ix2 p k) * wh (ix2 q k)) + b (ix1 q)

/-- The new cell state at `(p, q)`: the forget gate scales the old state, the input gate scales the candidate. -/
def cellAt (x h c : Act) (wii wif wig whi whf whg : Wgt) (bi bf bg : Bia) (p : Fin 4096) (q : Fin 2048) : EReal :=
  Ideal.logistic (gate x h wif whf bf p q) * c (ix2 p q)
    + Ideal.logistic (gate x h wii whi bi p q) * Ideal.tanh (gate x h wig whg bg p q)

/-- The new hidden state at `(p, q)`: the output gate scales the squashed new cell state. -/
def hiddenAt (x h c : Act) (wii wif wig wio whi whf whg who : Wgt) (bi bf bg bo : Bia) (p : Fin 4096) (q : Fin 2048) : EReal :=
  Ideal.logistic (gate x h wio who bo p q) * Ideal.tanh (cellAt x h c wii wif wig whi whf whg bi bf bg p q)

/-- The new cell state as one array. -/
def cellArr (x h c : Act) (wii wif wig whi whf whg : Wgt) (bi bf bg : Bia) : Act :=
  fun i => cellAt x h c wii wif wig whi whf whg bi bf bg (i 0) (i 1)

/-- The new hidden state as one array. -/
def hiddenArr (x h c : Act) (wii wif wig wio whi whf whg who : Wgt) (bi bf bg bo : Bia) : Act :=
  fun i => hiddenAt x h c wii wif wig wio whi whf whg who bi bf bg bo (i 0) (i 1)

end Cert.LstmCell

end
-- ==== Proof.BlockSpec.lean ====
/-
  A block of the kernel against the specification.

  If the loads of a grid point are the matching rows of the whole arrays — batch rows `P` of the input and the
  hidden state for the block's rows `p`, weight rows `Q` and bias entries `Q` for the block's columns `q`, the cell
  state at `(P, Q)` — then the block's gate is the specification's gate at `(P, Q)`, term for term of the two sums,
  and so are the two stored tiles. Stated over variables: which `P` and `Q` a grid point supplies is the business of
  the module that reads the blocks.
-/
import proofs.«146625_j53137335386702_1_alg».proof.Proof.BlockMath
import proofs.«146625_j53137335386702_1_alg».proof.Proof.CellSpec

noncomputable section

open scoped BigOperators

namespace Cert.KernelIdeal.Block

open Cert.KernelIdeal Cert.KernelIdeal.Gen Idealize.ShloMosaic Idealize.ShloMosaic.ValueIdx Cert.LstmCell

theorem gate_of_reads (X H : Act) (Wi Wh : Wgt) (B : Bia)
    (a b : FVec Ideal S512x2048 .bf16) (w1 w2 : FVec Ideal S256x2048 .bf16) (bias : FVec Ideal S1x256 .f32)
    (p : Fin 512) (q : Fin 256) (P : Fin 4096) (Q : Fin 2048)
    (ha : ∀ k : Fin 2048, a (ix2 p k) = X (ix2 P k)) (hb : ∀ k : Fin 2048, b (ix2 p k) = H (ix2 P k))
    (hw1 : ∀ k : Fin 2048, w1 (ix2 q k) = Wi (ix2 Q k)) (hw2 : ∀ k : Fin 2048, w2 (ix2 q k) = Wh (ix2 Q k))
    (hbias : bias (ix2 0 q) = B (ix1 Q)) :
    gateBlk a b w1 w2 bias p q = gate X H Wi Wh B P Q := by
  unfold gateBlk gate
  refine congrArg₂ (· + ·) (congrArg₂ (· + ·) (Finset.sum_congr rfl fun k _ => ?_) (Finset.sum_congr rfl fun k _ => ?_)) hbias
  · rw [ha k, hw1 k]
  · rw [hb k, hw2 k]

theorem cell_of_reads (X H C : Act) (Wii Wif Wig Whi Whf Whg : Wgt) (Bi Bf Bg : Bia)
    (x0 x1 : FVec Ideal S512x2048 .bf16) (x2 : FVec Ideal S512x256 .f32)
    (x3 x4 x5 x7 x8 x9 : FVec Ideal S256x2048 .bf16) (x11 x12 x13 : FVec Ideal S1x256 .f32)
    (p : Fin 512) (q : Fin 256) (P : Fin 4096) (Q : Fin 2048)
    (h0 : ∀ k : Fin 2048, x0 (ix2 p k) = X (ix2 P k)) (h1 : ∀ k : Fin 2048, x1 (ix2 p k) = H (ix2 P k))
    (h2 : x2 (ix2 p q) = C (ix2 P Q))
    (h3 : ∀ k : Fin 2048, x3 (ix2 q k) = Wii (ix2 Q k)) (h4 : ∀ k : Fin 2048, x4 (ix2 q k) = Wif (ix2 Q k))
    (h5 : ∀ k : Fin 2048, x5 (ix2 q k) = Wig (ix2 Q k))
    (h7 : ∀ k : Fin 2048, x7 (ix2 q k) = Whi (ix2 Q k)) (h8 : ∀ k : Fin 2048, x8 (ix2 q k) = Whf (ix2 Q k))
    (h9 : ∀ k : Fin 2048, x9 (ix2 q k) = Whg (ix2 Q k))
    (h11 : x11 (ix2 0 q) = Bi (ix1 Q)) (h12 : x12 (ix2 0 q) = Bf (ix1 Q)) (h13 : x13 (ix2 0 q) = Bg (ix1 Q)) :
    cellBlk x0 x1 x2 x3 x4 x5 x7 x8 x9 x11 x12 x13 p q = cellAt X H C Wii Wif Wig Whi Whf Whg Bi Bf Bg P Q := by
  unfold cellBlk cellAt
  rw [gate_of_reads X H Wif Whf Bf x0 x1 x4 x8 x12 p q P Q h0 h1 h4 h8 h12,
    gate_of_reads X H Wii Whi Bi x0 x1 x3 x7 x11 p q P Q h0 h1 h3 h7 h11,
    gate_of_reads X H Wig Whg Bg x0 x1 x5 x9 x13 p q P Q h0 h1 h5 h9 h13, h2]

theorem hidden_of_reads (X H C : Act) (Wii Wif Wig Wio Whi Whf Whg Who : Wgt) (Bi Bf Bg Bo : Bia)
    (x0 x1 : FVec Ideal S512x2048 .bf16) (x2 : FVec Ideal S512x256 .f32)
    (x3 x4 x5 x6 x7 x8 x9 x10 : FVec Ideal S256x2048 .bf16) (x11 x12 x13 x14 : FVec Ideal S1x256 .f32)
    (p : Fin 512) (q : Fin 256) (P : Fin 4096) (Q : Fin 2048)
    (h0 : ∀ k : Fin 2048, x0 (ix2 p k) = X (ix2 P k)) (h1 : ∀ k : Fin 2048, x1 (ix2 p k) = H (ix2 P k))
    (h2 : x2 (ix2 p q) = C (ix2 P Q))
    (h3 : ∀ k : Fin 2048, x3 (ix2 q k) = Wii (ix2 Q k)) (h4 : ∀ k : Fin 2048, x4 (ix2 q k) = Wif (ix2 Q k))
    (h5 : ∀ k : Fin 2048, x5 (ix2 q k) = Wig (ix2 Q k)) (h6 : ∀ k : Fin 2048, x6 (ix2 q k) = Wio (ix2 Q k))
    (h7 : ∀ k : Fin 2048, x7 (ix2 q k) = Whi (ix2 Q k)) (h8 : ∀ k : Fin 2048, x8 (ix2 q k) = Whf (ix2 Q k))
    (h9 : ∀ k : Fin 2048, x9 (ix2 q k) = Whg (ix2 Q k)) (h10 : ∀ k : Fin 2048, x10 (ix2 q k) = Who (ix2 Q k))
    (h11 : x11 (ix2 0 q) = Bi (ix1 Q)) (h12 : x12 (ix2 0 q) = Bf (ix1 Q)) (h13 : x13 (ix2 0 q) = Bg (ix1 Q))
    (h14 : x14 (ix2 0 q) = Bo (ix1 Q)) :
    hiddenBlk x0 x1 x2 x3 x4 x5 x6 x7 x8 x9 x10 x11 x12 x13 x14 p q
      = hiddenAt X H C Wii Wif Wig Wio Whi Whf Whg Who Bi Bf Bg Bo P Q := by
  unfold hiddenBlk hiddenAt
  rw [gate_of_reads X H Wio Who Bo x0 x1 x6 x10 x14 p q P Q h0 h1 h6 h10 h14,
    cell_of_reads X H C Wii Wif Wig Whi Whf Whg Bi Bf Bg x0 x1 x2 x3 x4 x5 x7 x8 x9 x11 x12 x13 p q P Q
      h0 h1 h2 h3 h4 h5 h7 h8 h9 h11 h12 h13]

end Cert.KernelIdeal.Block

end
-- ==== Proof.KernelCell.lean ====
/-
  The kernel's two result arrays are the specification's.

  The 8 × 8 grid cuts the 4096 × 2048 results into 512 × 256 tiles; grid point `(I, J)` computes tile `(I, J)`
  from batch rows `512·I …` of the input and of the hidden state, rows `256·J …` of every weight matrix, entries
  `256·J …` of every bias and tile `(I, J)` of the cell state. The host code in front of the grid only changes the
  float format of the inputs and weights (the identity on extended reals) and views each bias as a one-row matrix,
  so every block read is a read of an argument array. Entry `(p, q)` of tile `(I, J)` is then the specification
  at `(512·I + p, 256·J + q)`, the tiles cover the results, and the run ends with both results equal to the
  specification's arrays and all arguments unchanged.
-/
import proofs.«146625_j53137335386702_1_alg».proof.Proof.Gen.KernelIdeal.Value
import proofs.«146625_j53137335386702_1_alg».proof.Proof.BlockSpec
import Idealize.ShloMosaic.Lib.ValueLayout
import Idealize.ShloMosaic.Lib.StableHlo.Run

set_option maxRecDepth 16384

noncomputable section

namespace Cert.KernelIdeal.CellValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the grid finds: the arguments, re-typed or viewed as one row -/

theorem found0 (c : Dev nD) : (V m c main_v0 : S4096x2048.Idx → EReal) = (m ((c : Thread nD τ).loc main_arg0)) := by
  dsimp only [Gen.V, Gen.hostOps0]; after_results; rfl

theorem found1 (c : Dev nD) : (V m c main_v1 : S4096x2048.Idx → EReal) = (m ((c : Thread nD τ).loc main_arg1)) := by
  dsimp only [Gen.V, Gen.hostOps0]; after_results; rfl

theorem found3 (c : Dev nD) : (V m c main_v2 : S2048x2048.Idx → EReal) = (m ((c : Thread nD τ).loc main_arg3)) := by
  dsimp only [Gen.V, Gen.hostOps0]; after_results; rfl

theorem found4 (c : Dev nD) : (V m c main_v3 : S2048x2048.Idx → EReal) = (m ((c : Thread nD τ).loc main_arg4)) := by
  dsimp only [Gen.V, Gen.hostOps0]; after_results; rfl

theorem found5 (c : Dev nD) : (V m c main_v4 : S2048x2048.Idx → EReal) = (m ((c : Thread nD τ).loc main_arg5)) := by
  dsimp only [Gen.V, Gen.hostOps0]; after_results; rfl

theorem found6 (c : Dev nD) : (V m c main_v5 : S2048x2048.Idx → EReal) = (m ((c : Thread nD τ).loc main_arg6)) := by
  dsimp only [Gen.V, Gen.hostOps0]; after_results; rfl

theorem found7 (c : Dev nD) : (V m c main_v6 : S2048x2048.Idx → EReal) = (m ((c : Thread nD τ).loc main_arg7)) := by
  dsimp only [Gen.V, Gen.hostOps0]; after_results; rfl

theorem found8 (c : Dev nD) : (V m c main_v7 : S2048x2048.Idx → EReal) = (m ((c : Thread nD τ).loc main_arg8)) := by
  dsimp only [Gen.V, Gen.hostOps0]; after_results; rfl

theorem found9 (c : Dev nD) : (V m c main_v8 : S2048x2048.Idx → EReal) = (m ((c : Thread nD τ).loc main_arg9)) := by
  dsimp only [Gen.V, Gen.hostOps0]; after_results; rfl

theorem found10 (c : Dev nD) : (V m c main_v9 : S2048x2048.Idx → EReal) = (m ((c : Thread nD τ).loc main_arg10)) := by
  dsimp only [Gen.V, Gen.hostOps0]; after_results; rfl

theorem found11 (c : Dev nD) : (V m c main_v10 : S1x2048.Idx → EReal) = shapeCast S1x2048 (m ((c : Thread nD τ).loc main_arg11)) shapeCasts_S2048_S1x2048 := by
  dsimp only [Gen.V, Gen.hostOps0]; after_results; rfl

theorem found12 (c : Dev nD) : (V m c main_v11 : S1x2048.Idx → EReal) = shapeCast S1x2048 (m ((c : Thread nD τ).loc main_arg12)) shapeCasts_S2048_S1x2048 := by
  dsimp only [Gen.V, Gen.hostOps0]; after_results; rfl

theorem found13 (c : Dev nD) : (V m c main_v12 : S1x2048.Idx → EReal) = shapeCast S1x2048 (m ((c : Thread nD τ).loc main_arg13)) shapeCasts_S2048_S1x2048 := by
  dsimp only [Gen.V, Gen.hostOps0]; after_results; rfl

theorem found14 (c : Dev nD) : (V m c main_v13 : S1x2048.Idx → EReal) = shapeCast S1x2048 (m ((c : Thread nD τ).loc main_arg14)) shapeCasts_S2048_S1x2048 := by
  dsimp only [Gen.V, Gen.hostOps0]; after_results; rfl

/-! ## The index maps, decided over the 64 grid points -/

theorem idx0 : ∀ t : Fin cfg0.N, win0_0.index t (0 : Fin 2) = win0_16.index t (0 : Fin 2) ∧ win0_0.index t (1 : Fin 2) = 0 :=
  (by decide +kernel : ∀ t : Fin grid0.N, _)
theorem idx1 : ∀ t : Fin cfg0.N, win0_1.index t (0 : Fin 2) = win0_16.index t (0 : Fin 2) ∧ win0_1.index t (1 : Fin 2) = 0 :=
  (by decide +kernel : ∀ t : Fin grid0.N, _)
theorem idx2 : ∀ t : Fin cfg0.N, win0_2.index t (0 : Fin 2) = win0_16.index t (0 : Fin 2) ∧ win0_2.index t (1 : Fin 2) = win0_16.index t (1 : Fin 2) :=
  (by decide +kernel : ∀ t : Fin grid0.N, _)
theorem idx3 : ∀ t : Fin cfg0.N, win0_3.index t (0 : Fin 2) = win0_16.index t (1 : Fin 2) ∧ win0_3.index t (1 : Fin 2) = 0 :=
  (by decide +kernel : ∀ t : Fin grid0.N, _)
theorem idx4 : ∀ t : Fin cfg0.N, win0_4.index t (0 : Fin 2) = win0_16.index t (1 : Fin 2) ∧ win0_4.index t (1 : Fin 2) = 0 :=
  (by decide +kernel : ∀ t : Fin grid0.N, _)
theorem idx5 : ∀ t : Fin cfg0.N, win0_5.index t (0 : Fin 2) = win0_16.index t (1 : Fin 2) ∧ win0_5.index t (1 : Fin 2) = 0 :=
  (by decide +kernel : ∀ t : Fin grid0.N, _)
theorem idx6 : ∀ t : Fin cfg0.N, win0_6.index t (0 : Fin 2) = win0_16.index t (1 : Fin 2) ∧ win0_6.index t (1 : Fin 2) = 0 :=
  (by decide +kernel : ∀ t : Fin grid0.N, _)
theorem idx7 : ∀ t : Fin cfg0.N, win0_7.index t (0 : Fin 2) = win0_16.index t (1 : Fin 2) ∧ win0_7.index t (1 : Fin 2) = 0 :=
  (by decide +kernel : ∀ t : Fin grid0.N, _)
theorem idx8 : ∀ t : Fin cfg0.N, win0_8.index t (0 : Fin 2) = win0_16.index t (1 : Fin 2) ∧ win0_8.index t (1 : Fin 2) = 0 :=
  (by decide +kernel : ∀ t : Fin grid0.N, _)
theorem idx9 : ∀ t : Fin cfg0.N, win0_9.index t (0 : Fin 2) = win0_16.index t (1 : Fin 2) ∧ win0_9.index t (1 : Fin 2) = 0 :=
  (by decide +kernel : ∀ t : Fin grid0.N, _)
theorem idx10 : ∀ t : Fin cfg0.N, win0_10.index t (0 : Fin 2) = win0_16.index t (1 : Fin 2) ∧ win0_10.index t (1 : Fin 2) = 0 :=
  (by decide +kernel : ∀ t : Fin grid0.N, _)
theorem idx11 : ∀ t : Fin cfg0.N, win0_11.index t (0 : Fin 2) = 0 ∧ win0_11.index t (1 : Fin 2) = win0_16.index t (1 : Fin 2) :=
  (by decide +kernel : ∀ t : Fin grid0.N, _)
theorem idx12 : ∀ t : Fin cfg0.N, win0_12.index t (0 : Fin 2) = 0 ∧ win0_12.index t (1 : Fin 2) = win0_16.index t (1 : Fin 2) :=
  (by decide +kernel : ∀ t : Fin grid0.N, _)
theorem idx13 : ∀ t : Fin cfg0.N, win0_13.index t (0 : Fin 2) = 0 ∧ win0_13.index t (1 : Fin 2) = win0_16.index t (1 : Fin 2) :=
  (by decide +kernel : ∀ t : Fin grid0.N, _)
theorem idx14 : ∀ t : Fin cfg0.N, win0_14.index t (0 : Fin 2) = 0 ∧ win0_14.index t (1 : Fin 2) = win0_16.index t (1 : Fin 2) :=
  (by decide +kernel : ∀ t : Fin grid0.N, _)
/-- Both results move with the grid point, and the grid is 8 × 8. -/
theorem idxOut : ∀ t : Fin cfg0.N, win0_15.index t (0 : Fin 2) = win0_16.index t (0 : Fin 2) ∧ win0_15.index t (1 : Fin 2) = win0_16.index t (1 : Fin 2)
    ∧ win0_16.index t (0 : Fin 2) ≤ 7 ∧ win0_16.index t (1 : Fin 2) ≤ 7 :=
  (by decide +kernel : ∀ t : Fin grid0.N, _)
/-- Every tile is some grid point's. -/
theorem idx_onto : ∀ (q0 : Fin 8) (q1 : Fin 8), ∃ t : Fin cfg0.N, win0_16.index t = ![q0.val, q1.val] :=
  (by decide +kernel : ∀ (q0 : Fin 8) (q1 : Fin 8), ∃ t : Fin grid0.N, win0_16.index t = ![q0.val, q1.val])

/-! ## Each block read is a read of an argument array -/

theorem read0 (c : Dev nD) (t : Fin cfg0.N) (p : Fin 512) (k : Fin 2048) (P : Fin 4096)
    (hP : P.val = win0_16.index t (0 : Fin 2) * 512 + p.val) :
    iblk m c 0 t (ix2 p k) = (m ((c : Thread nD τ).loc main_arg0)) (ix2 P k) := by
  obtain ⟨e0, e1⟩ := idx0 t
  have h : ((cfg0.win 0).blk t).view.emb (ix2 p k) = ix2 P k := by
    funext a; apply Fin.ext
    match a with
    | ⟨0, _⟩ => show win0_0.index t (0 : Fin 2) * 512 + 1 * p.val = P.val; omega
    | ⟨1, _⟩ => show win0_0.index t (1 : Fin 2) * 2048 + 1 * k.val = k.val; omega
  show V m c main_v0 (((cfg0.win 0).blk t).view.emb (ix2 p k)) = _
  rw [h]
  exact congrFun (found0 m c) (ix2 P k)

theorem read1 (c : Dev nD) (t : Fin cfg0.N) (p : Fin 512) (k : Fin 2048) (P : Fin 4096)
    (hP : P.val = win0_16.index t (0 : Fin 2) * 512 + p.val) :
    iblk m c 1 t (ix2 p k) = (m ((c : Thread nD τ).loc main_arg1)) (ix2 P k) := by
  obtain ⟨e0, e1⟩ := idx1 t
  have h : ((cfg0.win 1).blk t).view.emb (ix2 p k) = ix2 P k := by
    funext a; apply Fin.ext
    match a with
    | ⟨0, _⟩ => show win0_1.index t (0 : Fin 2) * 512 + 1 * p.val = P.val; omega
    | ⟨1, _⟩ => show win0_1.index t (1 : Fin 2) * 2048 + 1 * k.val = k.val; omega
  show V m c main_v1 (((cfg0.win 1).blk t).view.emb (ix2 p k)) = _
  rw [h]
  exact congrFun (found1 m c) (ix2 P k)

theorem read2 (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    iblk m c 2 t (ix2 p q) = (m ((c : Thread nD τ).loc main_arg2)) (ix2 P Q) := by
  obtain ⟨e0, e1⟩ := idx2 t
  have h : ((cfg0.win 2).blk t).view.emb (ix2 p q) = ix2 P Q := by
    funext a; apply Fin.ext
    match a with
    | ⟨0, _⟩ => show win0_2.index t (0 : Fin 2) * 512 + 1 * p.val = P.val; omega
    | ⟨1, _⟩ => show win0_2.index t (1 : Fin 2) * 256 + 1 * q.val = Q.val; omega
  show V m c main_arg2 (((cfg0.win 2).blk t).view.emb (ix2 p q)) = _
  rw [h]
  exact congrFun (V_main_arg2 m c) (ix2 P Q)

theorem read3 (c : Dev nD) (t : Fin cfg0.N) (q : Fin 256) (k : Fin 2048) (Q : Fin 2048)
    (hQ : Q.val = win0_16.index t (1 : Fin 2) * 256 + q.val) :
    iblk m c 3 t (ix2 q k) = (m ((c : Thread nD τ).loc main_arg3)) (ix2 Q k) := by
  obtain ⟨e0, e1⟩ := idx3 t
  have h : ((cfg0.win 3).blk t).view.emb (ix2 q k) = ix2 Q k := by
    funext a; apply Fin.ext
    match a with
    | ⟨0, _⟩ => show win0_3.index t (0 : Fin 2) * 256 + 1 * q.val = Q.val; omega
    | ⟨1, _⟩ => show win0_3.index t (1 : Fin 2) * 2048 + 1 * k.val = k.val; omega
  show V m c main_v2 (((cfg0.win 3).blk t).view.emb (ix2 q k)) = _
  rw [h]
  exact congrFun (found3 m c) (ix2 Q k)

theorem read4 (c : Dev nD) (t : Fin cfg0.N) (q : Fin 256) (k : Fin 2048) (Q : Fin 2048)
    (hQ : Q.val = win0_16.index t (1 : Fin 2) * 256 + q.val) :
    iblk m c 4 t (ix2 q k) = (m ((c : Thread nD τ).loc main_arg4)) (ix2 Q k) := by
  obtain ⟨e0, e1⟩ := idx4 t
  have h : ((cfg0.win 4).blk t).view.emb (ix2 q k) = ix2 Q k := by
    funext a; apply Fin.ext
    match a with
    | ⟨0, _⟩ => show win0_4.index t (0 : Fin 2) * 256 + 1 * q.val = Q.val; omega
    | ⟨1, _⟩ => show win0_4.index t (1 : Fin 2) * 2048 + 1 * k.val = k.val; omega
  show V m c main_v3 (((cfg0.win 4).blk t).view.emb (ix2 q k)) = _
  rw [h]
  exact congrFun (found4 m c) (ix2 Q k)

theorem read5 (c : Dev nD) (t : Fin cfg0.N) (q : Fin 256) (k : Fin 2048) (Q : Fin 2048)
    (hQ : Q.val = win0_16.index t (1 : Fin 2) * 256 + q.val) :
    iblk m c 5 t (ix2 q k) = (m ((c : Thread nD τ).loc main_arg5)) (ix2 Q k) := by
  obtain ⟨e0, e1⟩ := idx5 t
  have h : ((cfg0.win 5).blk t).view.emb (ix2 q k) = ix2 Q k := by
    funext a; apply Fin.ext
    match a with
    | ⟨0, _⟩ => show win0_5.index t (0 : Fin 2) * 256 + 1 * q.val = Q.val; omega
    | ⟨1, _⟩ => show win0_5.index t (1 : Fin 2) * 2048 + 1 * k.val = k.val; omega
  show V m c main_v4 (((cfg0.win 5).blk t).view.emb (ix2 q k)) = _
  rw [h]
  exact congrFun (found5 m c) (ix2 Q k)

theorem read6 (c : Dev nD) (t : Fin cfg0.N) (q : Fin 256) (k : Fin 2048) (Q : Fin 2048)
    (hQ : Q.val = win0_16.index t (1 : Fin 2) * 256 + q.val) :
    iblk m c 6 t (ix2 q k) = (m ((c : Thread nD τ).loc main_arg6)) (ix2 Q k) := by
  obtain ⟨e0, e1⟩ := idx6 t
  have h : ((cfg0.win 6).blk t).view.emb (ix2 q k) = ix2 Q k := by
    funext a; apply Fin.ext
    match a with
    | ⟨0, _⟩ => show win0_6.index t (0 : Fin 2) * 256 + 1 * q.val = Q.val; omega
    | ⟨1, _⟩ => show win0_6.index t (1 : Fin 2) * 2048 + 1 * k.val = k.val; omega
  show V m c main_v5 (((cfg0.win 6).blk t).view.emb (ix2 q k)) = _
  rw [h]
  exact congrFun (found6 m c) (ix2 Q k)

theorem read7 (c : Dev nD) (t : Fin cfg0.N) (q : Fin 256) (k : Fin 2048) (Q : Fin 2048)
    (hQ : Q.val = win0_16.index t (1 : Fin 2) * 256 + q.val) :
    iblk m c 7 t (ix2 q k) = (m ((c : Thread nD τ).loc main_arg7)) (ix2 Q k) := by
  obtain ⟨e0, e1⟩ := idx7 t
  have h : ((cfg0.win 7).blk t).view.emb (ix2 q k) = ix2 Q k := by
    funext a; apply Fin.ext
    match a with
    | ⟨0, _⟩ => show win0_7.index t (0 : Fin 2) * 256 + 1 * q.val = Q.val; omega
    | ⟨1, _⟩ => show win0_7.index t (1 : Fin 2) * 2048 + 1 * k.val = k.val; omega
  show V m c main_v6 (((cfg0.win 7).blk t).view.emb (ix2 q k)) = _
  rw [h]
  exact congrFun (found7 m c) (ix2 Q k)

theorem read8 (c : Dev nD) (t : Fin cfg0.N) (q : Fin 256) (k : Fin 2048) (Q : Fin 2048)
    (hQ : Q.val = win0_16.index t (1 : Fin 2) * 256 + q.val) :
    iblk m c 8 t (ix2 q k) = (m ((c : Thread nD τ).loc main_arg8)) (ix2 Q k) := by
  obtain ⟨e0, e1⟩ := idx8 t
  have h : ((cfg0.win 8).blk t).view.emb (ix2 q k) = ix2 Q k := by
    funext a; apply Fin.ext
    match a with
    | ⟨0, _⟩ => show win0_8.index t (0 : Fin 2) * 256 + 1 * q.val = Q.val; omega
    | ⟨1, _⟩ => show win0_8.index t (1 : Fin 2) * 2048 + 1 * k.val = k.val; omega
  show V m c main_v7 (((cfg0.win 8).blk t).view.emb (ix2 q k)) = _
  rw [h]
  exact congrFun (found8 m c) (ix2 Q k)

theorem read9 (c : Dev nD) (t : Fin cfg0.N) (q : Fin 256) (k : Fin 2048) (Q : Fin 2048)
    (hQ : Q.val = win0_16.index t (1 : Fin 2) * 256 + q.val) :
    iblk m c 9 t (ix2 q k) = (m ((c : Thread nD τ).loc main_arg9)) (ix2 Q k) := by
  obtain ⟨e0, e1⟩ := idx9 t
  have h : ((cfg0.win 9).blk t).view.emb (ix2 q k) = ix2 Q k := by
    funext a; apply Fin.ext
    match a with
    | ⟨0, _⟩ => show win0_9.index t (0 : Fin 2) * 256 + 1 * q.val = Q.val; omega
    | ⟨1, _⟩ => show win0_9.index t (1 : Fin 2) * 2048 + 1 * k.val = k.val; omega
  show V m c main_v8 (((cfg0.win 9).blk t).view.emb (ix2 q k)) = _
  rw [h]
  exact congrFun (found9 m c) (ix2 Q k)

theorem read10 (c : Dev nD) (t : Fin cfg0.N) (q : Fin 256) (k : Fin 2048) (Q : Fin 2048)
    (hQ : Q.val = win0_16.index t (1 : Fin 2) * 256 + q.val) :
    iblk m c 10 t (ix2 q k) = (m ((c : Thread nD τ).loc main_arg10)) (ix2 Q k) := by
  obtain ⟨e0, e1⟩ := idx10 t
  have h : ((cfg0.win 10).blk t).view.emb (ix2 q k) = ix2 Q k := by
    funext a; apply Fin.ext
    match a with
    | ⟨0, _⟩ => show win0_10.index t (0 : Fin 2) * 256 + 1 * q.val = Q.val; omega
    | ⟨1, _⟩ => show win0_10.index t (1 : Fin 2) * 2048 + 1 * k.val = k.val; omega
  show V m c main_v9 (((cfg0.win 10).blk t).view.emb (ix2 q k)) = _
  rw [h]
  exact congrFun (found10 m c) (ix2 Q k)

theorem read11 (c : Dev nD) (t : Fin cfg0.N) (q : Fin 256) (Q : Fin 2048)
    (hQ : Q.val = win0_16.index t (1 : Fin 2) * 256 + q.val) :
    iblk m c 11 t (ix2 0 q) = (m ((c : Thread nD τ).loc main_arg11)) (ix1 Q) := by
  obtain ⟨e0, e1⟩ := idx11 t
  have h : ((cfg0.win 11).blk t).view.emb (ix2 (0 : Fin 1) q) = ix2 (0 : Fin 1) Q := by
    funext a; apply Fin.ext
    match a with
    | ⟨0, _⟩ => show win0_11.index t (0 : Fin 2) * 1 + 1 * 0 = 0; omega
    | ⟨1, _⟩ => show win0_11.index t (1 : Fin 2) * 256 + 1 * q.val = Q.val; omega
  show V m c main_v10 (((cfg0.win 11).blk t).view.emb (ix2 (0 : Fin 1) q)) = _
  rw [h]
  exact (congrFun (found11 m c) (ix2 (0 : Fin 1) Q)).trans (shapeCast_a_1a_apply _ shapeCasts_S2048_S1x2048 0 Q)

theorem read12 (c : Dev nD) (t : Fin cfg0.N) (q : Fin 256) (Q : Fin 2048)
    (hQ : Q.val = win0_16.index t (1 : Fin 2) * 256 + q.val) :
    iblk m c 12 t (ix2 0 q) = (m ((c : Thread nD τ).loc main_arg12)) (ix1 Q) := by
  obtain ⟨e0, e1⟩ := idx12 t
  have h : ((cfg0.win 12).blk t).view.emb (ix2 (0 : Fin 1) q) = ix2 (0 : Fin 1) Q := by
    funext a; apply Fin.ext
    match a with
    | ⟨0, _⟩ => show win0_12.index t (0 : Fin 2) * 1 + 1 * 0 = 0; omega
    | ⟨1, _⟩ => show win0_12.index t (1 : Fin 2) * 256 + 1 * q.val = Q.val; omega
  show V m c main_v11 (((cfg0.win 12).blk t).view.emb (ix2 (0 : Fin 1) q)) = _
  rw [h]
  exact (congrFun (found12 m c) (ix2 (0 : Fin 1) Q)).trans (shapeCast_a_1a_apply _ shapeCasts_S2048_S1x2048 0 Q)

theorem read13 (c : Dev nD) (t : Fin cfg0.N) (q : Fin 256) (Q : Fin 2048)
    (hQ : Q.val = win0_16.index t (1 : Fin 2) * 256 + q.val) :
    iblk m c 13 t (ix2 0 q) = (m ((c : Thread nD τ).loc main_arg13)) (ix1 Q) := by
  obtain ⟨e0, e1⟩ := idx13 t
  have h : ((cfg0.win 13).blk t).view.emb (ix2 (0 : Fin 1) q) = ix2 (0 : Fin 1) Q := by
    funext a; apply Fin.ext
    match a with
    | ⟨0, _⟩ => show win0_13.index t (0 : Fin 2) * 1 + 1 * 0 = 0; omega
    | ⟨1, _⟩ => show win0_13.index t (1 : Fin 2) * 256 + 1 * q.val = Q.val; omega
  show V m c main_v12 (((cfg0.win 13).blk t).view.emb (ix2 (0 : Fin 1) q)) = _
  rw [h]
  exact (congrFun (found13 m c) (ix2 (0 : Fin 1) Q)).trans (shapeCast_a_1a_apply _ shapeCasts_S2048_S1x2048 0 Q)

theorem read14 (c : Dev nD) (t : Fin cfg0.N) (q : Fin 256) (Q : Fin 2048)
    (hQ : Q.val = win0_16.index t (1 : Fin 2) * 256 + q.val) :
    iblk m c 14 t (ix2 0 q) = (m ((c : Thread nD τ).loc main_arg14)) (ix1 Q) := by
  obtain ⟨e0, e1⟩ := idx14 t
  have h : ((cfg0.win 14).blk t).view.emb (ix2 (0 : Fin 1) q) = ix2 (0 : Fin 1) Q := by
    funext a; apply Fin.ext
    match a with
    | ⟨0, _⟩ => show win0_14.index t (0 : Fin 2) * 1 + 1 * 0 = 0; omega
    | ⟨1, _⟩ => show win0_14.index t (1 : Fin 2) * 256 + 1 * q.val = Q.val; omega
  show V m c main_v13 (((cfg0.win 14).blk t).view.emb (ix2 (0 : Fin 1) q)) = _
  rw [h]
  exact (congrFun (found14 m c) (ix2 (0 : Fin 1) Q)).trans (shapeCast_a_1a_apply _ shapeCasts_S2048_S1x2048 0 Q)

/-! ## What a grid point writes back -/

/-- What grid point `t` writes back to the cell array is block `t` of the specification's array. -/
theorem flushed_cell (c : Dev nD) (t : Fin cfg0.N) :
    (dats m 0 c).flushed 16 t = ((cfg0.win 16).blk t).view.read (Elt Ideal) (LstmCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))) := by
  rw [Value.flushed16]
  obtain ⟨e0, e1, b0, b1⟩ := idxOut t
  funext y
  obtain ⟨p, q, rfl⟩ : ∃ (p : Fin 512) (q : Fin 256), y = ix2 p q := ⟨y 0, y 1, eq_ix2 y⟩
  have hp : p.val < 512 := p.isLt
  have hq : q.val < 256 := q.isLt
  obtain ⟨P, hP⟩ : ∃ P : Fin 4096, P.val = win0_16.index t (0 : Fin 2) * 512 + p.val := ⟨⟨win0_16.index t (0 : Fin 2) * 512 + p.val, by omega⟩, rfl⟩
  obtain ⟨Q, hQ⟩ : ∃ Q : Fin 2048, Q.val = win0_16.index t (1 : Fin 2) * 256 + q.val := ⟨⟨win0_16.index t (1 : Fin 2) * 256 + q.val, by omega⟩, rfl⟩
  have h : ((cfg0.win 16).blk t).view.emb (ix2 p q) = ix2 P Q := by
    funext a; apply Fin.ext
    match a with
    | ⟨0, _⟩ => show win0_16.index t (0 : Fin 2) * 512 + 1 * p.val = P.val; omega
    | ⟨1, _⟩ => show win0_16.index t (1 : Fin 2) * 256 + 1 * q.val = Q.val; omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = LstmCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (((cfg0.win 16).blk t).view.emb (ix2 p q))
  rw [h]
  refine (Block.out_cell_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  exact Block.cell_of_reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))
      (iblk m c 0 t) (iblk m c 1 t) (iblk m c 2 t) (iblk m c 3 t) (iblk m c 4 t) (iblk m c 5 t) (iblk m c 7 t) (iblk m c 8 t) (iblk m c 9 t) (iblk m c 11 t) (iblk m c 12 t) (iblk m c 13 t) p q P Q
      (fun k => read0 m c t p k P hP)
      (fun k => read1 m c t p k P hP)
      (read2 m c t p q P Q hP hQ)
      (fun k => read3 m c t q k Q hQ)
      (fun k => read4 m c t q k Q hQ)
      (fun k => read5 m c t q k Q hQ)
      (fun k => read7 m c t q k Q hQ)
      (fun k => read8 m c t q k Q hQ)
      (fun k => read9 m c t q k Q hQ)
      (read11 m c t q Q hQ)
      (read12 m c t q Q hQ)
      (read13 m c t q Q hQ)

/-- What grid point `t` writes back to the hidden array is block `t` of the specification's array. -/
theorem flushed_hidden (c : Dev nD) (t : Fin cfg0.N) :
    (dats m 0 c).flushed 15 t = ((cfg0.win 15).blk t).view.read (Elt Ideal) (LstmCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [Value.flushed15]
  obtain ⟨e0, e1, b0, b1⟩ := idxOut t
  funext y
  obtain ⟨p, q, rfl⟩ : ∃ (p : Fin 512) (q : Fin 256), y = ix2 p q := ⟨y 0, y 1, eq_ix2 y⟩
  have hp : p.val < 512 := p.isLt
  have hq : q.val < 256 := q.isLt
  obtain ⟨P, hP⟩ : ∃ P : Fin 4096, P.val = win0_16.index t (0 : Fin 2) * 512 + p.val := ⟨⟨win0_16.index t (0 : Fin 2) * 512 + p.val, by omega⟩, rfl⟩
  obtain ⟨Q, hQ⟩ : ∃ Q : Fin 2048, Q.val = win0_16.index t (1 : Fin 2) * 256 + q.val := ⟨⟨win0_16.index t (1 : Fin 2) * 256 + q.val, by omega⟩, rfl⟩
  have h : ((cfg0.win 15).blk t).view.emb (ix2 p q) = ix2 P Q := by
    funext a; apply Fin.ext
    match a with
    | ⟨0, _⟩ => show win0_15.index t (0 : Fin 2) * 512 + 1 * p.val = P.val; omega
    | ⟨1, _⟩ => show win0_15.index t (1 : Fin 2) * 256 + 1 * q.val = Q.val; omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = LstmCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 15).blk t).view.emb (ix2 p q))
  rw [h]
  refine (Block.out_hidden_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  exact Block.hidden_of_reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q P Q
      (fun k => read0 m c t p k P hP)
      (fun k => read1 m c t p k P hP)
      (read2 m c t p q P Q hP hQ)
      (fun k => read3 m c t q k Q hQ)
      (fun k => read4 m c t q k Q hQ)
      (fun k => read5 m c t q k Q hQ)
      (fun k => read6 m c t q k Q hQ)
      (fun k => read7 m c t q k Q hQ)
      (fun k => read8 m c t q k Q hQ)
      (fun k => read9 m c t q k Q hQ)
      (fun k => read10 m c t q k Q hQ)
      (read11 m c t q Q hQ)
      (read12 m c t q Q hQ)
      (read13 m c t q Q hQ)
      (read14 m c t q Q hQ)

/-! ## The tiles cover the results -/

/-- An index of the cell array lies in point `t`'s block iff each coordinate is in the block's range. -/
theorem mem_blk_cell (t : Fin cfg0.N) (i : S4096x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v14_1).slice (win0_16.rect t)).set ↔ _
  rw [View.set_slice_whole, Rect.mem_set_unit]
  exact Iff.rfl

/-- Every index of the cell array is in some grid point's block: the point whose tile holds row `i 0` and column `i 1`. -/
theorem cover_cell (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨e0, e1, b0, b1⟩ := idxOut t
  have q0 : win0_16.index t (0 : Fin 2) = (i 0).val / 512 := congrFun ht 0
  have q1 : win0_16.index t (1 : Fin 2) = (i 1).val / 256 := congrFun ht 1
  refine ⟨t, flush0_16 t, ?_⟩
  rw [mem_blk_cell]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-- The cell array after the run is the specification's array. -/
theorem final_cell (c : Dev nD) : (dats m 0 c).arrAt 16 cfg0.N = LstmCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) :=
  (dats m 0 c).arrAt_eq_of_cover 16 _ (fun t _ => flushed_cell m c t) cover_cell

/-- An index of the hidden array lies in point `t`'s block iff each coordinate is in the block's range. -/
theorem mem_blk_hidden (t : Fin cfg0.N) (i : S4096x2048.Idx) :
    i ∈ ((cfg0.win 15).blk t).view.set ↔ ∀ a : Fin 2, win0_15.index t a * S512x256.size a ≤ (i a).val ∧ (i a).val < win0_15.index t a * S512x256.size a + S512x256.size a := by
  show i ∈ ((View.whole main_v14_0).slice (win0_15.rect t)).set ↔ _
  rw [View.set_slice_whole, Rect.mem_set_unit]
  exact Iff.rfl

/-- Every index of the hidden array is in some grid point's block: the point whose tile holds row `i 0` and column `i 1`. -/
theorem cover_hidden (i : S4096x2048.Idx) : ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨e0, e1, b0, b1⟩ := idxOut t
  have q0 : win0_16.index t (0 : Fin 2) = (i 0).val / 512 := congrFun ht 0
  have q1 : win0_16.index t (1 : Fin 2) = (i 1).val / 256 := congrFun ht 1
  refine ⟨t, flush0_15 t, ?_⟩
  rw [mem_blk_hidden]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- The hidden array after the run is the specification's array. -/
theorem final_hidden (c : Dev nD) : (dats m 0 c).arrAt 15 cfg0.N = LstmCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 15 _ (fun t _ => flushed_hidden m c t) cover_hidden

/-! ## The run -/

/-- Every weakly fair execution of the kernel's program terminates with the two results at the specification's
    arrays of the arguments, and the arguments unchanged. -/
theorem run : θ_run defs (onTc (τ := τ) (main (F := Ideal))) ⟨m, fun _ => 0, ρ⟩ fun r => ∀ c : Dev nD,
      r.2.mem ((c : Thread nD τ).loc main_v14_0) = LstmCell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v14_1) = LstmCell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_hidden m c), (h c).2.1.trans (final_cell m c), (h c).2.2⟩)
    (Value.run_blocks m ρ)

end Cert.KernelIdeal.CellValue

end
-- ==== Proof.LibConcatRows4.lean ====
/-
  A concatenation of FOUR equal pieces along the leading axis, read at an index.

  Stacking four `n`-row matrices (or four length-`n` vectors) end to end gives a `4n`-row matrix (a length-`4n`
  vector); row `g · n + r` of the stack is row `r` of piece `g`. One lemma per piece `g = 0, 1, 2, 3`, for rank 2
  and for rank 1, each for an arbitrary index of the stack whose coordinates are given by equations — so that an
  index composed of slices and transposes can be handed over as it stands. No program is imported.
-/
import Idealize.ShloMosaic.Lib.Pipeline.Value
import Idealize.ShloMosaic.Lib.ValueIdx

noncomputable section

namespace Cert.Lib.ConcatRows4

open Idealize.ShloMosaic Idealize.ShloMosaic.ValueIdx

variable {α : Type}

/-- Piece `g` of a stack of four `n × m` matrices: row `pre + r` of the stack, `pre` the rows of the pieces before it. -/
theorem mat_piece {n m : Nat} (u0 u1 u2 u3 : (⟨2, ![n, m]⟩ : Shape).Idx → α)
    (h : Shape.Concatenates (([⟨⟨2, ![n, m]⟩, u0⟩, ⟨⟨2, ![n, m]⟩, u1⟩, ⟨⟨2, ![n, m]⟩, u2⟩, ⟨⟨2, ![n, m]⟩, u3⟩] :
      List ((s : Shape) × (s.Idx → α))).map (·.1)) ⟨2, ![4 * n, m]⟩ 0)
    (g : Nat) (hg : g < 4) (u : (⟨2, ![n, m]⟩ : Shape).Idx → α)
    (hu : ([⟨⟨2, ![n, m]⟩, u0⟩, ⟨⟨2, ![n, m]⟩, u1⟩, ⟨⟨2, ![n, m]⟩, u2⟩, ⟨⟨2, ![n, m]⟩, u3⟩] :
      List ((s : Shape) × (s.Idx → α)))[g]'(by simpa using hg) = ⟨⟨2, ![n, m]⟩, u⟩)
    (j : (⟨2, ![4 * n, m]⟩ : Shape).Idx) (r : Fin n) (k : Fin m)
    (hj0 : (j 0).val = g * n + r.val) (hj1 : (j 1).val = k.val) :
    concatenate ⟨2, ![4 * n, m]⟩ 0 [⟨⟨2, ![n, m]⟩, u0⟩, ⟨⟨2, ![n, m]⟩, u1⟩, ⟨⟨2, ![n, m]⟩, u2⟩, ⟨⟨2, ![n, m]⟩, u3⟩] h j
      = u (ix2 r k) := by
  refine concatenate_apply_piece 0 _ h j g (by simpa using hg) ⟨2, ![n, m]⟩ u hu rfl (g * n) ?_ (ix2 r k) ?_ ?_
  · match g, hg with
    | 0, _ => simp
    | 1, _ => simp
    | 2, _ => simp; omega
    | 3, _ => simp; omega
  · intro b hb
    match b with
    | ⟨0, _⟩ => exact absurd rfl hb
    | ⟨1, _⟩ => exact hj1.symm
  · exact hj0.symm

/-- Piece `g` of four length-`n` vectors laid end to end: entry `g · n + r`. -/
theorem vec_piece {n : Nat} (u0 u1 u2 u3 : (⟨1, ![n]⟩ : Shape).Idx → α)
    (h : Shape.Concatenates (([⟨⟨1, ![n]⟩, u0⟩, ⟨⟨1, ![n]⟩, u1⟩, ⟨⟨1, ![n]⟩, u2⟩, ⟨⟨1, ![n]⟩, u3⟩] :
      List ((s : Shape) × (s.Idx → α))).map (·.1)) ⟨1, ![4 * n]⟩ 0)
    (g : Nat) (hg : g < 4) (u : (⟨1, ![n]⟩ : Shape).Idx → α)
    (hu : ([⟨⟨1, ![n]⟩, u0⟩, ⟨⟨1, ![n]⟩, u1⟩, ⟨⟨1, ![n]⟩, u2⟩, ⟨⟨1, ![n]⟩, u3⟩] :
      List ((s : Shape) × (s.Idx → α)))[g]'(by simpa using hg) = ⟨⟨1, ![n]⟩, u⟩)
    (j : (⟨1, ![4 * n]⟩ : Shape).Idx) (r : Fin n) (hj0 : (j 0).val = g * n + r.val) :
    concatenate ⟨1, ![4 * n]⟩ 0 [⟨⟨1, ![n]⟩, u0⟩, ⟨⟨1, ![n]⟩, u1⟩, ⟨⟨1, ![n]⟩, u2⟩, ⟨⟨1, ![n]⟩, u3⟩] h j
      = u (ix1 r) := by
  refine concatenate_apply_piece 0 _ h j g (by simpa using hg) ⟨1, ![n]⟩ u hu rfl (g * n) ?_ (ix1 r) ?_ ?_
  · match g, hg with
    | 0, _ => simp
    | 1, _ => simp
    | 2, _ => simp; omega
    | 3, _ => simp; omega
  · intro b hb
    match b with
    | ⟨0, _⟩ => exact absurd rfl hb
  · exact hj0.symm

end Cert.Lib.ConcatRows4

end
-- ==== Proof.RefCell.lean ====
/-
  The reference computes the LSTM cell of the specification.

  It stacks the four gates' input weights into one 8192 × 2048 matrix, the four hidden weights into another and the
  four biases into one vector of 8192, forms all gates at once as `x · Wxᵀ + h · Whᵀ + b` (4096 × 8192), and cuts
  that into four blocks of 2048 columns. Column `g · 2048 + q` of the fused product contracts `x` (and `h`)
  against row `g · 2048 + q` of the stack, which is row `q` of gate `g`'s own matrix: so each block is that gate's
  pre-activation of the specification, sum for sum. The logistic function is spelled out on the host as
  `1 / (1 + exp (−z))`, which is the extended reals' logistic function by its definition.
-/
import proofs.«146625_j53137335386702_1_alg».proof.Proof.Gen.ReferenceIdeal.Read
import proofs.«146625_j53137335386702_1_alg».proof.Proof.CellSpec
import proofs.«146625_j53137335386702_1_alg».proof.Proof.LibConcatRows4
import Idealize.ShloMosaic.Lib.IdealHost

noncomputable section

open scoped BigOperators

namespace Cert.ReferenceIdeal.RefCell

open Cert.ReferenceIdeal Cert.ReferenceIdeal.Gen Cert.ReferenceIdeal.Read Idealize.ShloMosaic Idealize.ShloMosaic.ValueIdx

/-- The host's `1 / (1 + exp (−z))`, with both ones the literal `1.0`, is the logistic function. -/
theorem sigmoid_host (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

/-- Columns 0–2047 of the fused pre-activations are the input gate: rows 0… of the stacked weights are that
    gate's own weight rows, and entries 0… of the stacked bias its own bias. -/
theorem input_gate_at (x0 x1 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) (p : Fin 4096) (q : Fin 2048) :
    val_main_v11 (F := Ideal) x0 x1 x3 x4 x5 x6 x7 x8 x9 x10 x11 x12 x13 x14 (ix2 p q) = LstmCell.gate x0 x1 x3 x7 x11 p q := by
  rw [val_main_v11_apply, val_main_v10_apply, val_main_v7_apply, val_main_v4_apply, val_main_v6_apply, val_main_v9_apply, val_main_v8_apply]
  unfold LstmCell.gate
  refine congrArg₂ (· + ·) (congrArg₂ (· + ·) (Finset.sum_congr rfl fun k _ => ?_) (Finset.sum_congr rfl fun k _ => ?_)) ?_
  · rw [val_main_v3_apply]
    refine congrArg₂ (· * ·) (congrArg x0 (funext fun d => Fin.ext (by match d with | ⟨0, _⟩ => rfl | ⟨1, _⟩ => rfl))) ?_
    exact Cert.Lib.ConcatRows4.mat_piece (n := 2048) (m := 2048) x3 x4 x5 x6 _ 0 (by decide) x3 rfl _ q k (by show q.val = 0 * 2048 + q.val; omega) rfl
  · rw [val_main_v5_apply]
    refine congrArg₂ (· * ·) (congrArg x1 (funext fun d => Fin.ext (by match d with | ⟨0, _⟩ => rfl | ⟨1, _⟩ => rfl))) ?_
    exact Cert.Lib.ConcatRows4.mat_piece (n := 2048) (m := 2048) x7 x8 x9 x10 _ 0 (by decide) x7 rfl _ q k (by show q.val = 0 * 2048 + q.val; omega) rfl
  · exact Cert.Lib.ConcatRows4.vec_piece (n := 2048) x11 x12 x13 x14 _ 0 (by decide) x11 rfl _ q (by show q.val = 0 * 2048 + q.val; omega)

/-- Columns 2048–4095 of the fused pre-activations are the forget gate: rows 2048… of the stacked weights are that
    gate's own weight rows, and entries 2048… of the stacked bias its own bias. -/
theorem forget_gate_at (x0 x1 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) (p : Fin 4096) (q : Fin 2048) :
    val_main_v12 (F := Ideal) x0 x1 x3 x4 x5 x6 x7 x8 x9 x10 x11 x12 x13 x14 (ix2 p q) = LstmCell.gate x0 x1 x4 x8 x12 p q := by
  rw [val_main_v12_apply, val_main_v10_apply, val_main_v7_apply, val_main_v4_apply, val_main_v6_apply, val_main_v9_apply, val_main_v8_apply]
  unfold LstmCell.gate
  refine congrArg₂ (· + ·) (congrArg₂ (· + ·) (Finset.sum_congr rfl fun k _ => ?_) (Finset.sum_congr rfl fun k _ => ?_)) ?_
  · rw [val_main_v3_apply]
    refine congrArg₂ (· * ·) (congrArg x0 (funext fun d => Fin.ext (by match d with | ⟨0, _⟩ => rfl | ⟨1, _⟩ => rfl))) ?_
    exact Cert.Lib.ConcatRows4.mat_piece (n := 2048) (m := 2048) x3 x4 x5 x6 _ 1 (by decide) x4 rfl _ q k rfl rfl
  · rw [val_main_v5_apply]
    refine congrArg₂ (· * ·) (congrArg x1 (funext fun d => Fin.ext (by match d with | ⟨0, _⟩ => rfl | ⟨1, _⟩ => rfl))) ?_
    exact Cert.Lib.ConcatRows4.mat_piece (n := 2048) (m := 2048) x7 x8 x9 x10 _ 1 (by decide) x8 rfl _ q k rfl rfl
  · exact Cert.Lib.ConcatRows4.vec_piece (n := 2048) x11 x12 x13 x14 _ 1 (by decide) x12 rfl _ q rfl

/-- Columns 4096–6143 of the fused pre-activations are the candidate gate: rows 4096… of the stacked weights are that
    gate's own weight rows, and entries 4096… of the stacked bias its own bias. -/
theorem cand_gate_at (x0 x1 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) (p : Fin 4096) (q : Fin 2048) :
    val_main_v13 (F := Ideal) x0 x1 x3 x4 x5 x6 x7 x8 x9 x10 x11 x12 x13 x14 (ix2 p q) = LstmCell.gate x0 x1 x5 x9 x13 p q := by
  rw [val_main_v13_apply, val_main_v10_apply, val_main_v7_apply, val_main_v4_apply, val_main_v6_apply, val_main_v9_apply, val_main_v8_apply]
  unfold LstmCell.gate
  refine congrArg₂ (· + ·) (congrArg₂ (· + ·) (Finset.sum_congr rfl fun k _ => ?_) (Finset.sum_congr rfl fun k _ => ?_)) ?_
  · rw [val_main_v3_apply]
    refine congrArg₂ (· * ·) (congrArg x0 (funext fun d => Fin.ext (by match d with | ⟨0, _⟩ => rfl | ⟨1, _⟩ => rfl))) ?_
    exact Cert.Lib.ConcatRows4.mat_piece (n := 2048) (m := 2048) x3 x4 x5 x6 _ 2 (by decide) x5 rfl _ q k rfl rfl
  · rw [val_main_v5_apply]
    refine congrArg₂ (· * ·) (congrArg x1 (funext fun d => Fin.ext (by match d with | ⟨0, _⟩ => rfl | ⟨1, _⟩ => rfl))) ?_
    exact Cert.Lib.ConcatRows4.mat_piece (n := 2048) (m := 2048) x7 x8 x9 x10 _ 2 (by decide) x9 rfl _ q k rfl rfl
  · exact Cert.Lib.ConcatRows4.vec_piece (n := 2048) x11 x12 x13 x14 _ 2 (by decide) x13 rfl _ q rfl

/-- Columns 6144–8191 of the fused pre-activations are the output gate: rows 6144… of the stacked weights are that
    gate's own weight rows, and entries 6144… of the stacked bias its own bias. -/
theorem output_gate_at (x0 x1 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) (p : Fin 4096) (q : Fin 2048) :
    val_main_v14 (F := Ideal) x0 x1 x3 x4 x5 x6 x7 x8 x9 x10 x11 x12 x13 x14 (ix2 p q) = LstmCell.gate x0 x1 x6 x10 x14 p q := by
  rw [val_main_v14_apply, val_main_v10_apply, val_main_v7_apply, val_main_v4_apply, val_main_v6_apply, val_main_v9_apply, val_main_v8_apply]
  unfold LstmCell.gate
  refine congrArg₂ (· + ·) (congrArg₂ (· + ·) (Finset.sum_congr rfl fun k _ => ?_) (Finset.sum_congr rfl fun k _ => ?_)) ?_
  · rw [val_main_v3_apply]
    refine congrArg₂ (· * ·) (congrArg x0 (funext fun d => Fin.ext (by match d with | ⟨0, _⟩ => rfl | ⟨1, _⟩ => rfl))) ?_
    exact Cert.Lib.ConcatRows4.mat_piece (n := 2048) (m := 2048) x3 x4 x5 x6 _ 3 (by decide) x6 rfl _ q k rfl rfl
  · rw [val_main_v5_apply]
    refine congrArg₂ (· * ·) (congrArg x1 (funext fun d => Fin.ext (by match d with | ⟨0, _⟩ => rfl | ⟨1, _⟩ => rfl))) ?_
    exact Cert.Lib.ConcatRows4.mat_piece (n := 2048) (m := 2048) x7 x8 x9 x10 _ 3 (by decide) x10 rfl _ q k rfl rfl
  · exact Cert.Lib.ConcatRows4.vec_piece (n := 2048) x11 x12 x13 x14 _ 3 (by decide) x14 rfl _ q rfl

/-- The reference's new cell state at `(p, q)`. -/
theorem cell_at (x0 x1 x2 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) (p : Fin 4096) (q : Fin 2048) :
    val_main_v36 (F := Ideal) x0 x1 x2 x3 x4 x5 x6 x7 x8 x9 x10 x11 x12 x13 x14 (ix2 p q)
      = LstmCell.cellAt x0 x1 x2 x3 x4 x5 x7 x8 x9 x11 x12 x13 p q := by
  rw [val_main_v36_apply, val_main_v34_apply, val_main_v35_apply,
    val_main_v26_apply, val_main_v25_apply, val_main_cst_2_apply, val_main_v24_apply, val_main_v23_apply, val_main_cst_1_apply,
    val_main_v22_apply, val_main_v21_apply, forget_gate_at,
    val_main_v20_apply, val_main_v19_apply, val_main_cst_0_apply, val_main_v18_apply, val_main_v17_apply, val_main_cst_apply,
    val_main_v16_apply, val_main_v15_apply, input_gate_at,
    val_main_v27_apply, cand_gate_at, sigmoid_host, sigmoid_host]
  rfl

/-- The reference's new hidden state at `(p, q)`. -/
theorem hidden_at (x0 x1 x2 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) (p : Fin 4096) (q : Fin 2048) :
    val_main_v38 (F := Ideal) x0 x1 x2 x3 x4 x5 x6 x7 x8 x9 x10 x11 x12 x13 x14 (ix2 p q)
      = LstmCell.hiddenAt x0 x1 x2 x3 x4 x5 x6 x7 x8 x9 x10 x11 x12 x13 x14 p q := by
  rw [val_main_v38_apply, val_main_v37_apply, cell_at,
    val_main_v33_apply, val_main_v32_apply, val_main_cst_4_apply, val_main_v31_apply, val_main_v30_apply, val_main_cst_3_apply,
    val_main_v29_apply, val_main_v28_apply, output_gate_at, sigmoid_host]
  rfl

/-- The reference's second result is the specification's new cell state. -/
theorem cell_eq (x0 x1 x2 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) :
    val_main_v36 (F := Ideal) x0 x1 x2 x3 x4 x5 x6 x7 x8 x9 x10 x11 x12 x13 x14 = LstmCell.cellArr x0 x1 x2 x3 x4 x5 x7 x8 x9 x11 x12 x13 := by
  funext i
  obtain ⟨p, q, rfl⟩ : ∃ (p : Fin 4096) (q : Fin 2048), i = ix2 p q := ⟨i 0, i 1, eq_ix2 i⟩
  exact cell_at x0 x1 x2 x3 x4 x5 x6 x7 x8 x9 x10 x11 x12 x13 x14 p q

/-- The reference's first result is the specification's new hidden state. -/
theorem hidden_eq (x0 x1 x2 : (⟨S4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) :
    val_main_v38 (F := Ideal) x0 x1 x2 x3 x4 x5 x6 x7 x8 x9 x10 x11 x12 x13 x14 = LstmCell.hiddenArr x0 x1 x2 x3 x4 x5 x6 x7 x8 x9 x10 x11 x12 x13 x14 := by
  funext i
  obtain ⟨p, q, rfl⟩ : ∃ (p : Fin 4096) (q : Fin 2048), i = ix2 p q := ⟨i 0, i 1, eq_ix2 i⟩
  exact hidden_at x0 x1 x2 x3 x4 x5 x6 x7 x8 x9 x10 x11 x12 x13 x14 p q

end Cert.ReferenceIdeal.RefCell

end
-- ==== Proof.lean ====
/-
  An LSTM cell as one fused kernel against the plain formulation: both compute, for every batch row `p` and hidden
  unit `q`,
      c'[p,q] = σ(g_f) · c[p,q] + σ(g_i) · tanh(g_g),      h'[p,q] = σ(g_o) · tanh(c'[p,q]),
  where each gate is `g = (∑ₖ x[p,k] · W_x[q,k]) + (∑ₖ h[p,k] · W_h[q,k]) + b[q]` over the 2048 features with that
  gate's own weights and bias, and σ is the logistic function `1 / (1 + e⁻ᶻ)` (Proof/CellSpec.lean).

  The kernel forms the eight products tile by tile on an 8 × 8 grid, each tile from 512 batch rows and 256 rows of
  every weight matrix, with its operands first re-typed to a narrower float format — the identity on the extended
  reals (Proof/BlockMath.lean, Proof/BlockSpec.lean, Proof/KernelCell.lean). The reference stacks the four gates'
  weights and biases, forms all gates in two products and cuts the result into four column blocks; row `g·2048 + q`
  of a stack is row `q` of gate `g`'s matrix, so each block is that gate, sum for sum (Proof/LibConcatRows4.lean,
  Proof/RefCell.lean). The two sides differ only in how the same sums are laid out, so no hypothesis on the inputs
  is used: the precondition is never opened. The kernel's idealization rewrote no operation, so it is the
  kernel's own text read over the extended reals.
-/
import proofs.«146625_j53137335386702_1_alg».proof.Defs
import proofs.«146625_j53137335386702_1_alg».proof.Proof.Gen.Kernel
import proofs.«146625_j53137335386702_1_alg».proof.Proof.Gen.Kernel.Skeleton
import proofs.«146625_j53137335386702_1_alg».proof.Proof.Gen.Kernel.Launch
import proofs.«146625_j53137335386702_1_alg».proof.Proof.Gen.Kernel.Points
import proofs.«146625_j53137335386702_1_alg».proof.Proof.Gen.Kernel.Frame
import proofs.«146625_j53137335386702_1_alg».proof.Proof.Gen.KernelIdeal
import proofs.«146625_j53137335386702_1_alg».proof.Proof.Gen.KernelIdeal.Skeleton
import proofs.«146625_j53137335386702_1_alg».proof.Proof.Gen.KernelIdeal.Launch
import proofs.«146625_j53137335386702_1_alg».proof.Proof.Gen.KernelIdeal.Points
import proofs.«146625_j53137335386702_1_alg».proof.Proof.Gen.KernelIdeal.Frame
import proofs.«146625_j53137335386702_1_alg».proof.Proof.Gen.ReferenceIdeal
import proofs.«146625_j53137335386702_1_alg».proof.Proof.Gen.Pre_finite_inputs
import proofs.«146625_j53137335386702_1_alg».proof.Proof.Gen.KernelIdeal.Value
import proofs.«146625_j53137335386702_1_alg».proof.Proof.Gen.ReferenceIdeal.Run
import proofs.«146625_j53137335386702_1_alg».proof.Proof.Gen.ReferenceIdeal.Read
import proofs.«146625_j53137335386702_1_alg».proof.Proof.KernelCell
import proofs.«146625_j53137335386702_1_alg».proof.Proof.RefCell
import Idealize.ShloMosaic.Adequacy
import Idealize.ShloMosaic.Init

noncomputable section

namespace Cert.Proof

open Idealize.ShloMosaic Idealize.SL.Sem Cert.Kernel

/-- The kernel as printed runs to the end without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized: there is nothing to preserve. -/
theorem preserves : Cert.preserves_Kernel_KernelIdeal := trivial

/-- From memories that agree on the fifteen arguments both programs end with the new hidden state and the new cell
    state of the specification: the kernel's by its tiles, the reference's by reading its operations at an index. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, Cert.ReferenceIdeal.RefCell.hidden_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  · rw [Cert.ReferenceIdeal.Read.val_main_v36_eq, Cert.ReferenceIdeal.RefCell.cell_eq,
      (hagree c).1, (hagree c).2.1, (hagree c).2.2.1, (hagree c).2.2.2.1, (hagree c).2.2.2.2.1, (hagree c).2.2.2.2.2.1, (hagree c).2.2.2.2.2.2.2.1, (hagree c).2.2.2.2.2.2.2.2.1, (hagree c).2.2.2.2.2.2.2.2.2.1, (hagree c).2.2.2.2.2.2.2.2.2.2.2.1, (hagree c).2.2.2.2.2.2.2.2.2.2.2.2.1, (hagree c).2.2.2.2.2.2.2.2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
